-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x262144x256 : Shape := ⟨3, ![1, 262144, 256]⟩
abbrev S256x256 : Shape := ⟨2, ![256, 256]⟩
abbrev S256 : Shape := ⟨1, ![256]⟩
abbrev S262144 : Shape := ⟨1, ![262144]⟩
abbrev S_ : Shape := ⟨0, ![]⟩

class Facts : Prop where
  bcast_S_S1x262144x256 : S_.BroadcastsInDim S1x262144x256 (![] : Fin 0 → Fin S1x262144x256.rank)
  reducesTo_S1x262144x256_S_d0_1_2 : S1x262144x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_arg5 : FVec F S256x256 .f32) (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S1x262144x256 .f32) (main_arg1 : FVec F S256x256 .f32) (main_arg2 : FVec F S256 .f32) (main_arg3 : FVec F S256x256 .f32) (main_arg4 : FVec F S256 .f32) (main_arg5 : FVec F S256x256 .f32) (main_arg6 : FVec F S256 .f32) (main_arg7 : IVec S262144 32) : IVec S_ 1 :=
  let main_v0 : FVec F S1x262144x256 .f32 := Host.absf main_arg0
  let main_cst : FVec F S_ .f32 := constant S_ .f32 0x7F800000#32
  let main_v1 : FVec F S1x262144x256 .f32 := broadcastInDim S1x262144x256 ![] bcast_S_S1x262144x256 main_cst
  let main_v2 : IVec S1x262144x256 1 := cmpf .olt main_v0 main_v1
  let main_c : IVec S_ 1 := constantI S_ 1 1#1
  let main_v3 : IVec S_ 1 := (fun x v => Host.reduce IntOp.andi x v reducesTo_S1x262144x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S1x262144x256 : Shape := ⟨3, ![1, 262144, 256]⟩
abbrev S256x256 : Shape := ⟨2, ![256, 256]⟩
abbrev S256 : Shape := ⟨1, ![256]⟩
abbrev S262144 : Shape := ⟨1, ![262144]⟩
abbrev S262144x256 : Shape := ⟨2, ![262144, 256]⟩
abbrev S4096x256 : Shape := ⟨2, ![4096, 256]⟩
abbrev S1x256 : Shape := ⟨2, ![1, 256]⟩
abbrev S_ : Shape := ⟨0, ![]⟩
abbrev S262144x1 : Shape := ⟨2, ![262144, 1]⟩

abbrev nBuf : Space → Nat
  | .hbm => 51
  | .vmem => 6
  | .smem => 0
  | _ => 0

abbrev bufTy : (tb : Table) → Fin (tcTables nBuf tb) → BufTy
  | .hbm, ⟨0, _⟩ => ⟨S1x262144x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S262144, .i32⟩
  | .hbm, ⟨8, _⟩ => ⟨S262144x256, .f32⟩
  | .hbm, ⟨9, _⟩ => ⟨S256x256, .f32⟩
  | .hbm, ⟨10, _⟩ => ⟨S256x256, .f32⟩
  | .hbm, ⟨11, _⟩ => ⟨S256x256, .bf16⟩
  | .hbm, ⟨12, _⟩ => ⟨S256x256, .f32⟩
  | .hbm, ⟨13, _⟩ => ⟨S262144x256, .f32⟩
  | .hbm, ⟨14, _⟩ => ⟨S_, .f32⟩
  | .hbm, ⟨15, _⟩ => ⟨S4096x256, .f32⟩
  | .hbm, ⟨16, _⟩ => ⟨S262144x1, .i32⟩
  | .hbm, ⟨17, _⟩ => ⟨S4096x256, .f32⟩
  | .hbm, ⟨18, _⟩ => ⟨S_, .i32⟩
  | .hbm, ⟨19, _⟩ => ⟨S262144, .i32⟩
  | .hbm, ⟨20, _⟩ => ⟨S262144, .i1⟩
  | .hbm, ⟨21, _⟩ => ⟨S_, .i32⟩
  | .hbm, ⟨22, _⟩ => ⟨S262144, .i32⟩
  | .hbm, ⟨23, _⟩ => ⟨S262144, .i32⟩
  | .hbm, ⟨24, _⟩ => ⟨S262144, .i32⟩
  | .hbm, ⟨25, _⟩ => ⟨S262144x1, .i32⟩
  | .hbm, ⟨26, _⟩ => ⟨S262144x256, .f32⟩
  | .hbm, ⟨27, _⟩ => ⟨S262144x256, .f32⟩
  | .hbm, ⟨28, _⟩ => ⟨S1x256, .f32⟩
  | .hbm, ⟨29, _⟩ => ⟨S262144x256, .f32⟩
  | .hbm, ⟨30, _⟩ => ⟨S262144x256, .f32⟩
  | .hbm, ⟨31, _⟩ => ⟨S262144x256, .f32⟩
  | .hbm, ⟨32, _⟩ => ⟨S262144x256, .f32⟩
  | .hbm, ⟨33, _⟩ => ⟨S_, .f32⟩
  | .hbm, ⟨34, _⟩ => ⟨S4096x256, .f32⟩
  | .hbm, ⟨35, _⟩ => ⟨S262144x1, .i32⟩
  | .hbm, ⟨36, _⟩ => ⟨S4096x256, .f32⟩
  | .hbm, ⟨37, _⟩ => ⟨S4096x256, .f32⟩
  | .hbm, ⟨38, _⟩ => ⟨S1x256, .f32⟩
  | .hbm, ⟨39, _⟩ => ⟨S4096x256, .f32⟩
  | .hbm, ⟨40, _⟩ => ⟨S4096x256, .f32⟩
  | .hbm, ⟨41, _⟩ => ⟨S_, .i32⟩
  | .hbm, ⟨42, _⟩ => ⟨S262144, .i32⟩
  | .hbm, ⟨43, _⟩ => ⟨S262144, .i1⟩
  | .hbm, ⟨44, _⟩ => ⟨S_, .i32⟩
  | .hbm, ⟨45, _⟩ => ⟨S262144, .i32⟩
  | .hbm, ⟨46, _⟩ => ⟨S262144, .i32⟩
  | .hbm, ⟨47, _⟩ => ⟨S262144, .i32⟩
  | .hbm, ⟨48, _⟩ => ⟨S262144x1, .i32⟩
  | .hbm, ⟨49, _⟩ => ⟨S262144x256, .f32⟩
  | .hbm, ⟨50, _⟩ => ⟨S1x262144x256, .f32⟩
  | .local _ .vmem, ⟨0, _⟩ => ⟨S4096x256, .f32⟩
  | .local _ .vmem, ⟨1, _⟩ => ⟨S4096x256, .f32⟩
  | .local _ .vmem, ⟨2, _⟩ => ⟨S256x256, .bf16⟩
  | .local _ .vmem, ⟨3, _⟩ => ⟨S256, .f32⟩
  | .local _ .vmem, ⟨4, _⟩ => ⟨S4096x256, .f32⟩
  | .local _ .vmem, ⟨5, _⟩ => ⟨S4096x256, .f32⟩
  | _, _ => ⟨S1x262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_2 : Ref sig .tc := ⟨.hbm, 41, rfl⟩
abbrev main_v29 : Ref sig .tc := ⟨.hbm, 42, rfl⟩
abbrev main_v30 : Ref sig .tc := ⟨.hbm, 43, rfl⟩
abbrev main_c_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1x262144x256_S262144x256 : S1x262144x256.ShapeCasts S262144x256
  transposes_S256x256_S256x256_1_0 : S256x256.Transposes [1, 0] S256x256
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  bcast_S_S4096x256 : S_.BroadcastsInDim S4096x256 (![] : Fin 0 → Fin S4096x256.rank)
  bcast_S262144_S262144x1_0 : S262144.BroadcastsInDim S262144x1 (![0] : Fin 1 → Fin S262144x1.rank)
  bcast_S_S262144 : S_.BroadcastsInDim S262144 (![] : Fin 0 → Fin S262144.rank)
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S1x256_S4096x256_0_1 : S1x256.BroadcastsInDim S4096x256 (![0, 1] : Fin 2 → Fin S4096x256.rank)
  bcast_S262144x256_S1x262144x256_1_2 : S262144x256.BroadcastsInDim S1x262144x256 (![1, 2] : Fin 2 → Fin S1x262144x256.rank)
  dot_S4096x256_S256x256_S4096x256_1_0_0_1_n_n_wf : DotDims.WF S4096x256 S256x256 S4096x256 [1] [0] [0] [1] [] []
  scatter_S4096x256_S262144x1_S262144x256_1_0_0_1_wf : ScatterDims.WF S4096x256 S262144x1 S262144x256 [1] [0] [0] 1
  gather_S4096x256_S262144x1_S262144x256_1_0_n_n_0_1_1256_wf : GatherDims.WF S4096x256 S262144x1 S262144x256 [1] [0] [] [0] [] 1 ![1, 256]
  dot_S262144x256_S256x256_S262144x256_1_0_0_1_n_n_wf : DotDims.WF S262144x256 S256x256 S262144x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S262144x256.size a
  hwx0_0 : ∀ i : grid0.Coords, EltTy.bits .f32 = 32 ∨ (Rect.block (s := S262144x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S262144x256.size a
  hwx0_3 : ∀ i : grid0.Coords, EltTy.bits .f32 = 32 ∨ (Rect.block (s := S262144x256) S4096x256.size (cc0_transform_3 i) (hinb0_3 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def scatter_S4096x256_S262144x1_S262144x256_1_0_0_1 : ScatterDims S4096x256 S262144x1 S262144x256 where
  updateWindowDims := [1]
  insertedWindowDims := [0]
  scatterDimsToOperandDims := [0]
  indexVectorDim := 1
  wf := scatter_S4096x256_S262144x1_S262144x256_1_0_0_1_wf
def gather_S4096x256_S262144x1_S262144x256_1_0_n_n_0_1_1256 : GatherDims S4096x256 S262144x1 S262144x256 where
  offsetDims := [1]
  collapsedSliceDims := [0]
  operandBatchingDims := []
  startIndicesBatchingDims := []
  startIndexMap := [0]
  indexVectorDim := 1
  sliceSizes := ![1, 256]
  wf := gather_S4096x256_S262144x1_S262144x256_1_0_n_n_0_1_1256_wf
def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf

abbrev win0_0 : Pipeline.Window sig grid0 :=
  Pipeline.Window.ofSpec (Memref.whole main_v0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S4096x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1x262144x256 : Shape := ⟨3, ![1, 262144, 256]⟩
abbrev S256x256 : Shape := ⟨2, ![256, 256]⟩
abbrev S256 : Shape := ⟨1, ![256]⟩
abbrev S262144 : Shape := ⟨1, ![262144]⟩
abbrev S262144x256 : Shape := ⟨2, ![262144, 256]⟩
abbrev S1x256 : Shape := ⟨2, ![1, 256]⟩
abbrev S_ : Shape := ⟨0, ![]⟩
abbrev S4096x256 : Shape := ⟨2, ![4096, 256]⟩
abbrev S262144x1 : Shape := ⟨2, ![262144, 1]⟩

abbrev nBuf : Space → Nat
  | .hbm => 62
  | .vmem => 0
  | .smem => 0
  | _ => 0

abbrev bufTy : (tb : Table) → Fin (tcTables nBuf tb) → BufTy
  | .hbm, ⟨0, _⟩ => ⟨S1x262144x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S262144, .i32⟩
  | .hbm, ⟨8, _⟩ => ⟨S262144x256, .f32⟩
  | .hbm, ⟨9, _⟩ => ⟨S256x256, .f32⟩
  | .hbm, ⟨10, _⟩ => ⟨S262144x256, .f32⟩
  | .hbm, ⟨11, _⟩ => ⟨S1x256, .f32⟩
  | .hbm, ⟨12, _⟩ => ⟨S262144x256, .f32⟩
  | .hbm, ⟨13, _⟩ => ⟨S262144x256, .f32⟩
  | .hbm, ⟨14, _⟩ => ⟨S256x256, .f32⟩
  | .hbm, ⟨15, _⟩ => ⟨S262144x256, .f32⟩
  | .hbm, ⟨16, _⟩ => ⟨S1x256, .f32⟩
  | .hbm, ⟨17, _⟩ => ⟨S262144x256, .f32⟩
  | .hbm, ⟨18, _⟩ => ⟨S262144x256, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S262144x256, .f32⟩
  | .hbm, ⟨23, _⟩ => ⟨S262144x256, .f32⟩
  | .hbm, ⟨24, _⟩ => ⟨S_, .f32⟩
  | .hbm, ⟨25, _⟩ => ⟨S262144x256, .f32⟩
  | .hbm, ⟨26, _⟩ => ⟨S262144x256, .f32⟩
  | .hbm, ⟨27, _⟩ => ⟨S262144x256, .f32⟩
  | .hbm, ⟨28, _⟩ => ⟨S_, .f32⟩
  | .hbm, ⟨29, _⟩ => ⟨S4096x256, .f32⟩
  | .hbm, ⟨30, _⟩ => ⟨S262144x1, .i32⟩
  | .hbm, ⟨31, _⟩ => ⟨S4096x256, .f32⟩
  | .hbm, ⟨32, _⟩ => ⟨S_, .i32⟩
  | .hbm, ⟨33, _⟩ => ⟨S262144, .i32⟩
  | .hbm, ⟨34, _⟩ => ⟨S262144, .i1⟩
  | .hbm, ⟨35, _⟩ => ⟨S_, .i32⟩
  | .hbm, ⟨36, _⟩ => ⟨S262144, .i32⟩
  | .hbm, ⟨37, _⟩ => ⟨S262144, .i32⟩
  | .hbm, ⟨38, _⟩ => ⟨S262144, .i32⟩
  | .hbm, ⟨39, _⟩ => ⟨S262144x1, .i32⟩
  | .hbm, ⟨40, _⟩ => ⟨S262144x256, .f32⟩
  | .hbm, ⟨41, _⟩ => ⟨S262144x256, .f32⟩
  | .hbm, ⟨42, _⟩ => ⟨S262144x256, .f32⟩
  | .hbm, ⟨43, _⟩ => ⟨S_, .f32⟩
  | .hbm, ⟨44, _⟩ => ⟨S4096x256, .f32⟩
  | .hbm, ⟨45, _⟩ => ⟨S262144x1, .i32⟩
  | .hbm, ⟨46, _⟩ => ⟨S4096x256, .f32⟩
  | .hbm, ⟨47, _⟩ => ⟨S256x256, .f32⟩
  | .hbm, ⟨48, _⟩ => ⟨S4096x256, .f32⟩
  | .hbm, ⟨49, _⟩ => ⟨S1x256, .f32⟩
  | .hbm, ⟨50, _⟩ => ⟨S4096x256, .f32⟩
  | .hbm, ⟨51, _⟩ => ⟨S4096x256, .f32⟩
  | .hbm, ⟨52, _⟩ => ⟨S_, .i32⟩
  | .hbm, ⟨53, _⟩ => ⟨S262144, .i32⟩
  | .hbm, ⟨54, _⟩ => ⟨S262144, .i1⟩
  | .hbm, ⟨55, _⟩ => ⟨S_, .i32⟩
  | .hbm, ⟨56, _⟩ => ⟨S262144, .i32⟩
  | .hbm, ⟨57, _⟩ => ⟨S262144, .i32⟩
  | .hbm, ⟨58, _⟩ => ⟨S262144, .i32⟩
  | .hbm, ⟨59, _⟩ => ⟨S262144x1, .i32⟩
  | .hbm, ⟨60, _⟩ => ⟨S262144x256, .f32⟩
  | .hbm, ⟨61, _⟩ => ⟨S1x262144x256, .f32⟩
  | _, _ => ⟨S1x262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_4 : Ref sig .tc := ⟨.hbm, 52, rfl⟩
abbrev main_v33 : Ref sig .tc := ⟨.hbm, 53, rfl⟩
abbrev main_v34 : Ref sig .tc := ⟨.hbm, 54, rfl⟩
abbrev main_c_5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩

abbrev nD : Nat := 1
abbrev τ : Topo := Topo.v7x

variable {F : FTy → Type} [FloatOps F]

class Facts₀ : Prop where
  shapeCasts_S1x262144x256_S262144x256 : S1x262144x256.ShapeCasts S262144x256
  transposes_S256x256_S256x256_1_0 : S256x256.Transposes [1, 0] S256x256
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  bcast_S_S4096x256 : S_.BroadcastsInDim S4096x256 (![] : Fin 0 → Fin S4096x256.rank)
  bcast_S262144_S262144x1_0 : S262144.BroadcastsInDim S262144x1 (![0] : Fin 1 → Fin S262144x1.rank)
  bcast_S_S262144 : S_.BroadcastsInDim S262144 (![] : Fin 0 → Fin S262144.rank)
  bcast_S1x256_S4096x256_0_1 : S1x256.BroadcastsInDim S4096x256 (![0, 1] : Fin 2 → Fin S4096x256.rank)
  bcast_S262144x256_S1x262144x256_1_2 : S262144x256.BroadcastsInDim S1x262144x256 (![1, 2] : Fin 2 → Fin S1x262144x256.rank)
  dot_S262144x256_S256x256_S262144x256_1_0_0_1_n_n_wf : DotDims.WF S262144x256 S256x256 S262144x256 [1] [0] [0] [1] [] []
  scatter_S4096x256_S262144x1_S262144x256_1_0_0_1_wf : ScatterDims.WF S4096x256 S262144x1 S262144x256 [1] [0] [0] 1
  gather_S4096x256_S262144x1_S262144x256_1_0_n_n_0_1_1256_wf : GatherDims.WF S4096x256 S262144x1 S262144x256 [1] [0] [] [0] [] 1 ![1, 256]
  dot_S4096x256_S256x256_S4096x256_1_0_0_1_n_n_wf : DotDims.WF S4096x256 S256x256 S4096x256 [1] [0] [0] [1] [] []

variable [Facts₀]

def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf
def scatter_S4096x256_S262144x1_S262144x256_1_0_0_1 : ScatterDims S4096x256 S262144x1 S262144x256 where
  updateWindowDims := [1]
  insertedWindowDims := [0]
  scatterDimsToOperandDims := [0]
  indexVectorDim := 1
  wf := scatter_S4096x256_S262144x1_S262144x256_1_0_0_1_wf
def gather_S4096x256_S262144x1_S262144x256_1_0_n_n_0_1_1256 : GatherDims S4096x256 S262144x1 S262144x256 where
  offsetDims := [1]
  collapsedSliceDims := [0]
  operandBatchingDims := []
  startIndicesBatchingDims := []
  startIndexMap := [0]
  indexVectorDim := 1
  sliceSizes := ![1, 256]
  wf := gather_S4096x256_S262144x1_S262144x256_1_0_n_n_0_1_1256_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

class Facts : Prop extends Facts₀ where

variable [Facts]
-- ==== Proof.LibTile.lean ====
/-
  Row tiles. A T × C array `x` is the tile of an M × C array `X` at row offset r0 when x (p, l) = X (r0 + p, l).
  The operations of a dense layer keep that relation, the tile's side written with a kernel's vector operations
  and the whole array's side with the host's: a product with a weight matrix (row r0 + p of X · W only reads
  row r0 + p of X), a bias row added to every row, a splat constant, the pointwise operations, a comparison
  feeding a select, a change of float format (the identity on the extended reals), a column slice, and a
  1 × C row repeated down the rows. A layer's output tile is then the tile of the layer's whole output by
  composing these, one step per operation.
-/
import Idealize.ShloMosaic.PureOps.Ideal.Laws
import Idealize.ShloMosaic.Lib.ValueIdx
import Idealize.ShloMosaic.Lib.Pipeline.Value

noncomputable section

namespace Cert.Tile

open Idealize.ShloMosaic Idealize.ShloMosaic.ValueIdx

/-- In a plain M×K by K×N product the left operand is read at (row of the result, k). -/
theorem plain_lhs {M K N : Nat} (j : (⟨2, ![M, N]⟩ : Shape).Idx) (k : (DotDims.plain M K N).contr.Idx) :
    (DotDims.plain M K N).lhsIdx j k = ix2 (j 0) (k ⟨0, Nat.one_pos⟩) := by
  funext a
  match a with
  | ⟨0, _⟩ => rfl
  | ⟨1, _⟩ => rfl

/-- … and the right operand at (k, column of the result). -/
theorem plain_rhs {M K N : Nat} (j : (⟨2, ![M, N]⟩ : Shape).Idx) (k : (DotDims.plain M K N).contr.Idx) :
    (DotDims.plain M K N).rhsIdx j k = ix2 (k ⟨0, Nat.one_pos⟩) (j 1) := by
  funext a
  match a with
  | ⟨0, _⟩ => rfl
  | ⟨1, _⟩ => rfl

/-- `x` is rows [r0, r0 + T) of `X`. -/
def IsTile {T M C : Nat} (r0 : Nat) (hr : r0 + T ≤ M) (x : (⟨2, ![T, C]⟩ : Shape).Idx → EReal)
    (X : (⟨2, ![M, C]⟩ : Shape).Idx → EReal) : Prop :=
  ∀ (p : Fin T) (l : Fin C), x (ix2 p l) = X (ix2 ⟨r0 + p.val, by omega⟩ l)

variable {T M : Nat} {r0 : Nat} {hr : r0 + T ≤ M}

/-- Row r0 + p of X · W is row p of (tile of X) · W: the contraction over k reads the same products. -/
theorem matmul {K N : Nat} {x : (⟨2, ![T, K]⟩ : Shape).Idx → EReal} {X : (⟨2, ![M, K]⟩ : Shape).Idx → EReal}
    (W : (⟨2, ![K, N]⟩ : Shape).Idx → EReal) (hx : IsTile r0 hr x X) :
    IsTile r0 hr (Ideal.matmul (DotDims.plain T K N) x W (fun _ => Ideal.ofBits .f32 0x00000000#32))
      (Ideal.matmul (DotDims.plain M K N) X W (fun _ => 0)) := by
  intro p q
  unfold Ideal.matmul
  rw [Ideal.ofBits_zero_f32]
  refine congrArg (fun s => (0 : EReal) + s) (Finset.sum_congr rfl fun k _ => ?_)
  have e1 := plain_lhs (K := K) (ix2 p q) k
  have e2 := plain_rhs (K := K) (ix2 p q) k
  have e3 : (DotDims.plain M K N).lhsIdx (ix2 ⟨r0 + p.val, by omega⟩ q) k = ix2 ⟨r0 + p.val, by omega⟩ (k ⟨0, Nat.one_pos⟩) :=
    plain_lhs (M := M) (K := K) (N := N) (ix2 ⟨r0 + p.val, by omega⟩ q) k
  have e4 : (DotDims.plain M K N).rhsIdx (ix2 ⟨r0 + p.val, by omega⟩ q) k = ix2 (k ⟨0, Nat.one_pos⟩) q :=
    plain_rhs (M := M) (K := K) (N := N) (ix2 ⟨r0 + p.val, by omega⟩ q) k
  exact congrArg₂ (· * ·) ((congrArg x e1).trans ((hx p _).trans (congrArg X e3.symm))) (congrArg W (e2.trans e4.symm))

/-- A bias of C entries, viewed 1 × C and repeated down T rows, against the same bias broadcast to 1 × C and then to
    M × C: both read entry l in column l. -/
theorem bias {C : Nat} (b : (⟨1, ![C]⟩ : Shape).Idx → EReal)
    (h1 : (⟨1, ![C]⟩ : Shape).ShapeCasts ⟨2, ![1, C]⟩) (h2 : (⟨2, ![1, C]⟩ : Shape).Broadcasts ⟨2, ![T, C]⟩)
    (g1 : (⟨1, ![C]⟩ : Shape).BroadcastsInDim ⟨2, ![1, C]⟩ ![1])
    (g2 : (⟨2, ![1, C]⟩ : Shape).BroadcastsInDim ⟨2, ![M, C]⟩ ![0, 1]) :
    IsTile r0 hr (broadcastTo ⟨2, ![T, C]⟩ (shapeCast ⟨2, ![1, C]⟩ b h1) h2)
      (broadcastInDim ⟨2, ![M, C]⟩ ![0, 1] g2 (broadcastInDim ⟨2, ![1, C]⟩ ![1] g1 b)) := by
  intro p l
  have hl := l.isLt
  have eL : broadcastTo ⟨2, ![T, C]⟩ (shapeCast ⟨2, ![1, C]⟩ b h1) h2 (ix2 p l) = b (ix1 l) := by
    refine (broadcastTo_apply _ h2 (ix2 p l) (ix2 ⟨0, Nat.one_pos⟩ l) fun a => ?_).trans ?_
    · match a with
      | ⟨0, _⟩ => rfl
      | ⟨1, _⟩ =>
        show l.val = if C = 1 then 0 else l.val
        split <;> omega
    · refine (shapeCast_apply b h1 (ix2 ⟨0, Nat.one_pos⟩ l) (ix1 l) ?_)
      rw [Shape.rowMajor_val_one, Shape.rowMajor_val_two]
      show l.val = 0 * C + l.val
      omega
  have eR : broadcastInDim ⟨2, ![M, C]⟩ ![0, 1] g2 (broadcastInDim ⟨2, ![1, C]⟩ ![1] g1 b) (ix2 ⟨r0 + p.val, by omega⟩ l) = b (ix1 l) := by
    refine (broadcastInDim_apply _ g2 _ (ix2 ⟨r0 + p.val, by omega⟩ l) (ix2 ⟨0, Nat.one_pos⟩ l) fun a => ?_).trans ?_
    · match a with
      | ⟨0, _⟩ => rfl
      | ⟨1, _⟩ =>
        show l.val = if C = 1 then 0 else l.val
        split <;> omega
    · refine (broadcastInDim_apply _ g1 b (ix2 ⟨0, Nat.one_pos⟩ l) (ix1 l) fun a => ?_)
      match a with
      | ⟨0, _⟩ =>
        show l.val = if C = 1 then 0 else l.val
        split <;> omega
  exact eL.trans eR.symm

/-- A splat of one value over the tile, against the same value broadcast over the whole array. -/
theorem splat {C : Nat} (v : EReal) (s : (⟨0, ![]⟩ : Shape).Idx → EReal) (hs : s ix0 = v)
    (g : (⟨0, ![]⟩ : Shape).BroadcastsInDim ⟨2, ![M, C]⟩ ![]) :
    IsTile r0 hr (broadcast ⟨2, ![T, C]⟩ v) (broadcastInDim ⟨2, ![M, C]⟩ ![] g s) := by
  intro p l
  show v = _
  rw [← hs]
  exact (broadcastInDim_apply _ g s _ ix0 fun a => a.elim0).symm

/-- A 1 × C row repeated down the tile's rows, against the same row repeated down the whole array's. -/
theorem rowRep {C : Nat} (r : (⟨2, ![1, C]⟩ : Shape).Idx → EReal)
    (h2 : (⟨2, ![1, C]⟩ : Shape).Broadcasts ⟨2, ![T, C]⟩)
    (g2 : (⟨2, ![1, C]⟩ : Shape).BroadcastsInDim ⟨2, ![M, C]⟩ ![0, 1]) :
    IsTile r0 hr (broadcastTo ⟨2, ![T, C]⟩ r h2) (broadcastInDim ⟨2, ![M, C]⟩ ![0, 1] g2 r) := by
  intro p l
  have hl := l.isLt
  have eL : broadcastTo ⟨2, ![T, C]⟩ r h2 (ix2 p l) = r (ix2 ⟨0, Nat.one_pos⟩ l) := by
    refine (broadcastTo_apply _ h2 (ix2 p l) (ix2 ⟨0, Nat.one_pos⟩ l) fun a => ?_)
    match a with
    | ⟨0, _⟩ => rfl
    | ⟨1, _⟩ =>
      show l.val = if C = 1 then 0 else l.val
      split <;> omega
  have eR : broadcastInDim ⟨2, ![M, C]⟩ ![0, 1] g2 r (ix2 ⟨r0 + p.val, by omega⟩ l) = r (ix2 ⟨0, Nat.one_pos⟩ l) := by
    refine (broadcastInDim_apply _ g2 _ (ix2 ⟨r0 + p.val, by omega⟩ l) (ix2 ⟨0, Nat.one_pos⟩ l) fun a => ?_)
    match a with
    | ⟨0, _⟩ => rfl
    | ⟨1, _⟩ =>
      show l.val = if C = 1 then 0 else l.val
      split <;> omega
  exact eL.trans eR.symm

section Pointwise
variable {C : Nat} {x y : (⟨2, ![T, C]⟩ : Shape).Idx → EReal} {X Y : (⟨2, ![M, C]⟩ : Shape).Idx → EReal}

/-- An operation applied entry by entry keeps tiles. -/
theorem map (f : EReal → EReal) (hx : IsTile r0 hr x X) : IsTile r0 hr (fun i => f (x i)) (fun i => f (X i)) :=
  fun p l => congrArg f (hx p l)

/-- A two-operand operation applied entry by entry keeps tiles. -/
theorem map₂ (f : EReal → EReal → EReal) (hx : IsTile r0 hr x X) (hy : IsTile r0 hr y Y) :
    IsTile r0 hr (fun i => f (x i) (y i)) (fun i => f (X i) (Y i)) :=
  fun p l => congrArg₂ f (hx p l) (hy p l)

/-- A comparison of two tiles choosing between two others, entry by entry. -/
theorem sel {u v : (⟨2, ![T, C]⟩ : Shape).Idx → EReal} {U V : (⟨2, ![M, C]⟩ : Shape).Idx → EReal}
    (f : EReal → EReal → EReal → EReal → EReal)
    (hx : IsTile r0 hr x X) (hy : IsTile r0 hr y Y) (hu : IsTile r0 hr u U) (hv : IsTile r0 hr v V) :
    IsTile r0 hr (fun i => f (x i) (y i) (u i) (v i)) (fun i => f (X i) (Y i) (U i) (V i)) :=
  fun p l => by show f _ _ _ _ = f _ _ _ _; rw [hx p l, hy p l, hu p l, hv p l]

end Pointwise

/-- Columns [o, o + C) of a tile are the tile of the same columns of the whole array. -/
theorem cols {C D : Nat} (o : Nat) {x : (⟨2, ![T, D]⟩ : Shape).Idx → EReal} {X : (⟨2, ![M, D]⟩ : Shape).Idx → EReal}
    (h : (⟨2, ![T, D]⟩ : Shape).Slices ![0, o] ⟨2, ![T, C]⟩) (g : (⟨2, ![M, D]⟩ : Shape).Slices ![0, o] ⟨2, ![M, C]⟩)
    (hx : IsTile r0 hr x X) :
    IsTile r0 hr (extractStridedSlice ⟨2, ![T, C]⟩ ![0, o] x h) (extractStridedSlice ⟨2, ![M, C]⟩ ![0, o] X g) := by
  intro p l
  have hD : o + l.val < D := by
    have h2 : o + C ≤ D := h.2 (1 : Fin 2)
    have hl := l.isLt
    omega
  have eL : extractStridedSlice ⟨2, ![T, C]⟩ ![0, o] x h (ix2 p l) = x (ix2 p ⟨o + l.val, hD⟩) := by
    refine extractStridedSlice_apply _ x h (ix2 p l) (ix2 p ⟨o + l.val, hD⟩) fun a => ?_
    match a with
    | ⟨0, _⟩ => show p.val = 0 + p.val; omega
    | ⟨1, _⟩ => rfl
  have eR : extractStridedSlice ⟨2, ![M, C]⟩ ![0, o] X g (ix2 ⟨r0 + p.val, by omega⟩ l) = X (ix2 ⟨r0 + p.val, by omega⟩ ⟨o + l.val, hD⟩) := by
    refine extractStridedSlice_apply _ X g _ (ix2 ⟨r0 + p.val, by omega⟩ ⟨o + l.val, hD⟩) fun a => ?_
    match a with
    | ⟨0, _⟩ => show r0 + p.val = 0 + (r0 + p.val); omega
    | ⟨1, _⟩ => rfl
  exact eL.trans ((hx p _).trans eR.symm)

end Cert.Tile

end
-- ==== Proof.Gate.lean ====
/-
  The gate of the layer. For an M × 256 array X (M = 262144), a 256 × 256 matrix W and a bias b of 256 entries,

      gate X W b (n, c) = exp (min 50 (max (−50) (Σ_k X (n, k) · W (k, c) + b c))).

  It is written here with the host's operations, as the reference spells it. The kernel computes it 4096 rows at a
  time: a point's payload is the same expression of a 4096 × 256 block of X, written with vector operations (the
  rounding of both matmul operands to bf16 is the identity on the extended reals). Row n of X · W only reads row n
  of X, the bias and the two clipping constants do not depend on the row, and exp, min, max, + act entry by entry:
  so the payload of the block of rows [r0, r0 + 4096) is the block of those rows of the gate. No law of the
  extended reals beyond that is used, and none that needs a finite operand.
-/
import proofs.«173078_j78726750535843_2_alg».proof.Proof.Gen.KernelIdeal.Skeleton
import proofs.«173078_j78726750535843_2_alg».proof.Proof.Gen.ReferenceIdeal
import proofs.«173078_j78726750535843_2_alg».proof.Proof.LibTile

noncomputable section

namespace Cert.Gate

open Idealize.ShloMosaic Idealize.ShloMosaic.ValueIdx

section Whole
open Cert.ReferenceIdeal Cert.ReferenceIdeal.Gen

/-- exp of the clipped affine map, on the whole array. -/
def gate (X : FVec Ideal S262144x256 .f32) (W : FVec Ideal S256x256 .f32) (b : FVec Ideal S256 .f32) :
    FVec Ideal S262144x256 .f32 :=
  Host.exp (F := Ideal) (minimumf (broadcastInDim S262144x256 ![] bcast_S_S262144x256 (id (constant (F := Ideal) S_ .f32 0x42480000#32)))
    (maximumf (broadcastInDim S262144x256 ![] bcast_S_S262144x256 (id (constant (F := Ideal) S_ .f32 0xC2480000#32)))
      (addf (Host.dotGeneral (F := Ideal) dot_S262144x256_S256x256_S262144x256_1_0_0_1_n_n none X W)
        (broadcastInDim S262144x256 ![0, 1] bcast_S1x256_S262144x256_0_1 (broadcastInDim S1x256 ![1] bcast_S256_S1x256_1 b)))))

end Whole

/-- The payload of a block of 4096 rows of X is the same block of rows of the gate of X. -/
theorem payload_tile (r0 : Nat) (hr : r0 + 4096 ≤ 262144)
    (xb : FVec Ideal Cert.KernelIdeal.S4096x256 .f32) (w : FVec Ideal Cert.KernelIdeal.S256x256 .bf16)
    (b : FVec Ideal Cert.KernelIdeal.S256 .f32) (X : FVec Ideal Cert.ReferenceIdeal.S262144x256 .f32)
    (hx : Cert.Tile.IsTile r0 hr xb X) :
    Cert.Tile.IsTile r0 hr (Cert.KernelIdeal.Gen.k0_pay1 (F := Ideal) xb w b) (gate X w b) := by
  unfold Cert.KernelIdeal.Gen.k0_pay1 gate
  dsimp only
  rw [shapeCast_self, shapeCast_self]
  -- the two matmul operands after the change of format, and the products
  have hmm := Cert.Tile.matmul (r0 := r0) (hr := hr) (N := 256) w hx
  -- the bias row under every row
  have hb := Cert.Tile.bias (T := 4096) (M := 262144) (r0 := r0) (hr := hr) b
    Cert.KernelIdeal.Facts₀.shapeCasts_S256_S1x256 Cert.KernelIdeal.Facts₀.broadcasts_S1x256_S4096x256
    Cert.ReferenceIdeal.Gen.bcast_S256_S1x256_1 Cert.ReferenceIdeal.Gen.bcast_S1x256_S262144x256_0_1
  -- the clipping constants
  have hlo := Cert.Tile.splat (T := 4096) (M := 262144) (r0 := r0) (hr := hr) (C := 256)
    (Scalar.ofBits (F := Ideal) .f32 0xC2480000#32) (id (constant (F := Ideal) Cert.ReferenceIdeal.S_ .f32 0xC2480000#32)) rfl
    Cert.ReferenceIdeal.Gen.bcast_S_S262144x256
  have hhi := Cert.Tile.splat (T := 4096) (M := 262144) (r0 := r0) (hr := hr) (C := 256)
    (Scalar.ofBits (F := Ideal) .f32 0x42480000#32) (id (constant (F := Ideal) Cert.ReferenceIdeal.S_ .f32 0x42480000#32)) rfl
    Cert.ReferenceIdeal.Gen.bcast_S_S262144x256
  exact Cert.Tile.map Ideal.exp (Cert.Tile.map₂ min hhi (Cert.Tile.map₂ max hlo (Cert.Tile.map₂ (· + ·) hmm hb)))

end Cert.Gate

end
-- ==== Proof.Pool.lean ====
/-
  The segment pooling that follows the gate, as ONE function of the gate values E (N × 256, N = 262144), the rows X,
  the two weight matrices already transposed, the two biases, and the segment ids ix (N integers):

      den  = Σ over the rows of each segment of E              (a scatter-add into 4096 × 256 zeros)
      w    = E / den[segment of the row]                       (a gather, then the host's division)
      y    = Σ over the rows of each segment of (X · WfT + bf) * w
      out  = (y · WhT + bh)[segment of the row],  with a leading axis of size one.

  A negative id is first moved up by 4096, as indexing does. Both programs apply exactly these operations to their
  gate values, each in its own spelling of the shapes and dimension records; the two spellings are one function
  (`pool_eq`), so the programs agree as soon as their gate values do, and the pooling itself is never opened.
  The reference's last stage is this function of its own gate (`ref_eq`).
-/
import proofs.«173078_j78726750535843_2_alg».proof.Proof.Gen.KernelIdeal
import proofs.«173078_j78726750535843_2_alg».proof.Proof.Gen.ReferenceIdeal.Read
import proofs.«173078_j78726750535843_2_alg».proof.Proof.Gate

noncomputable section

namespace Cert.Pool

open Idealize.ShloMosaic

section Ref
open Cert.ReferenceIdeal Cert.ReferenceIdeal.Gen

/-- The pooling, in the reference's spelling. -/
def pool (E X : FVec Ideal S262144x256 .f32) (WfT : FVec Ideal S256x256 .f32) (bf : FVec Ideal S256 .f32)
    (WhT : FVec Ideal S256x256 .f32) (bh : FVec Ideal S256 .f32) (ix : IVec S262144 32) : FVec Ideal S1x262144x256 .f32 :=
  broadcastInDim S1x262144x256 ![1, 2] bcast_S262144x256_S1x262144x256_1_2
    (Host.gather gather_S4096x256_S262144x1_S262144x256_1_0_n_n_0_1_1256
      (addf
        (Host.dotGeneral (F := Ideal) dot_S4096x256_S256x256_S4096x256_1_0_0_1_n_n none
          (Host.scatterAdd (F := Ideal) scatter_S4096x256_S262144x1_S262144x256_1_0_0_1
            (broadcastInDim S4096x256 ![] bcast_S_S4096x256 (constant (F := Ideal) S_ .f32 0x00000000#32))
            (broadcastInDim S262144x1 ![0] bcast_S262144_S262144x1_0 ix)
            (mulf
              (addf (Host.dotGeneral (F := Ideal) dot_S262144x256_S256x256_S262144x256_1_0_0_1_n_n none X WfT)
                (broadcastInDim S262144x256 ![0, 1] bcast_S1x256_S262144x256_0_1 (broadcastInDim S1x256 ![1] bcast_S256_S1x256_1 bf)))
              (Host.divf (F := Ideal) E
                (Host.gather gather_S4096x256_S262144x1_S262144x256_1_0_n_n_0_1_1256
                  (Host.scatterAdd (F := Ideal) scatter_S4096x256_S262144x1_S262144x256_1_0_0_1
                    (broadcastInDim S4096x256 ![] bcast_S_S4096x256 (constant (F := Ideal) S_ .f32 0x00000000#32))
                    (broadcastInDim S262144x1 ![0] bcast_S262144_S262144x1_0 ix) E)
                  (broadcastInDim S262144x1 ![0] bcast_S262144_S262144x1_0
                    (select (cmpi .slt ix (broadcastInDim S262144 ![] bcast_S_S262144 (constantI S_ 32 0#32)))
                      (addi ix (broadcastInDim S262144 ![] bcast_S_S262144 (constantI S_ 32 4096#32))) ix))))))
          WhT)
        (broadcastInDim S4096x256 ![0, 1] bcast_S1x256_S4096x256_0_1 (broadcastInDim S1x256 ![1] bcast_S256_S1x256_1 bh)))
      (broadcastInDim S262144x1 ![0] bcast_S262144_S262144x1_0
        (select (cmpi .slt ix (broadcastInDim S262144 ![] bcast_S_S262144 (constantI S_ 32 0#32)))
          (addi ix (broadcastInDim S262144 ![] bcast_S_S262144 (constantI S_ 32 4096#32))) ix)))

end Ref

section Ker
open Cert.KernelIdeal Cert.KernelIdeal.Gen

/-- The pooling, in the kernel program's spelling. -/
def poolK (E X : FVec Ideal S262144x256 .f32) (WfT : FVec Ideal S256x256 .f32) (bf : FVec Ideal S256 .f32)
    (WhT : FVec Ideal S256x256 .f32) (bh : FVec Ideal S256 .f32) (ix : IVec S262144 32) : FVec Ideal S1x262144x256 .f32 :=
  broadcastInDim S1x262144x256 ![1, 2] bcast_S262144x256_S1x262144x256_1_2
    (Host.gather gather_S4096x256_S262144x1_S262144x256_1_0_n_n_0_1_1256
      (addf
        (Host.dotGeneral (F := Ideal) dot_S4096x256_S256x256_S4096x256_1_0_0_1_n_n none
          (Host.scatterAdd (F := Ideal) scatter_S4096x256_S262144x1_S262144x256_1_0_0_1
            (broadcastInDim S4096x256 ![] bcast_S_S4096x256 (constant (F := Ideal) S_ .f32 0x00000000#32))
            (broadcastInDim S262144x1 ![0] bcast_S262144_S262144x1_0 ix)
            (mulf
              (addf (Host.dotGeneral (F := Ideal) dot_S262144x256_S256x256_S262144x256_1_0_0_1_n_n none X WfT)
                (broadcastInDim S262144x256 ![0, 1] bcast_S1x256_S262144x256_0_1 (broadcastInDim S1x256 ![1] bcast_S256_S1x256_1 bf)))
              (Host.divf (F := Ideal) E
                (Host.gather gather_S4096x256_S262144x1_S262144x256_1_0_n_n_0_1_1256
                  (Host.scatterAdd (F := Ideal) scatter_S4096x256_S262144x1_S262144x256_1_0_0_1
                    (broadcastInDim S4096x256 ![] bcast_S_S4096x256 (constant (F := Ideal) S_ .f32 0x00000000#32))
                    (broadcastInDim S262144x1 ![0] bcast_S262144_S262144x1_0 ix) E)
                  (broadcastInDim S262144x1 ![0] bcast_S262144_S262144x1_0
                    (select (cmpi .slt ix (broadcastInDim S262144 ![] bcast_S_S262144 (constantI S_ 32 0#32)))
                      (addi ix (broadcastInDim S262144 ![] bcast_S_S262144 (constantI S_ 32 4096#32))) ix))))))
          WhT)
        (broadcastInDim S4096x256 ![0, 1] bcast_S1x256_S4096x256_0_1 (broadcastInDim S1x256 ![1] bcast_S256_S1x256_1 bh)))
      (broadcastInDim S262144x1 ![0] bcast_S262144_S262144x1_0
        (select (cmpi .slt ix (broadcastInDim S262144 ![] bcast_S_S262144 (constantI S_ 32 0#32)))
          (addi ix (broadcastInDim S262144 ![] bcast_S_S262144 (constantI S_ 32 4096#32))) ix)))

end Ker

/-- The two spellings are one function: the shapes are the same literals and the dimension records have the same fields. -/
theorem pool_eq (E X : FVec Ideal Cert.ReferenceIdeal.S262144x256 .f32) (WfT : FVec Ideal Cert.ReferenceIdeal.S256x256 .f32)
    (bf : FVec Ideal Cert.ReferenceIdeal.S256 .f32) (WhT : FVec Ideal Cert.ReferenceIdeal.S256x256 .f32)
    (bh : FVec Ideal Cert.ReferenceIdeal.S256 .f32) (ix : IVec Cert.ReferenceIdeal.S262144 32) :
    poolK E X WfT bf WhT bh ix = pool E X WfT bf WhT bh ix := rfl

section RefStage
open Cert.ReferenceIdeal Cert.ReferenceIdeal.Gen

/-- The whole function both programs compute, of the eight arguments: the gate of the rows (the first argument
    without its leading unit axis), the fourth argument transposed and the fifth; then the pooling with the second
    and sixth arguments transposed, the third and seventh as biases, the eighth as segment ids. -/
def whole (x0 : (⟨S1x262144x256, .f32⟩ : BufTy).Contents (Elt Ideal)) (x1 : (⟨S256x256, .f32⟩ : BufTy).Contents (Elt Ideal))
    (x2 : (⟨S256, .f32⟩ : BufTy).Contents (Elt Ideal)) (x3 : (⟨S256x256, .f32⟩ : BufTy).Contents (Elt Ideal))
    (x4 : (⟨S256, .f32⟩ : BufTy).Contents (Elt Ideal)) (x5 : (⟨S256x256, .f32⟩ : BufTy).Contents (Elt Ideal))
    (x6 : (⟨S256, .f32⟩ : BufTy).Contents (Elt Ideal)) (x7 : (⟨S262144, .i32⟩ : BufTy).Contents (Elt Ideal)) :
    (⟨S1x262144x256, .f32⟩ : BufTy).Contents (Elt Ideal) :=
  pool (Cert.Gate.gate (shapeCast _ x0 shapeCasts_S1x262144x256_S262144x256) (transpose S256x256 [1, 0] x3 transposes_S256x256_S256x256_1_0) x4)
    (shapeCast _ x0 shapeCasts_S1x262144x256_S262144x256) (transpose S256x256 [1, 0] x1 transposes_S256x256_S256x256_1_0) x2
    (transpose S256x256 [1, 0] x5 transposes_S256x256_S256x256_1_0) x6 x7

/-- The reference's result is that function: its operations, in program order, are the gate's and then the pooling's. -/
theorem ref_eq (x0 : (⟨S1x262144x256, .f32⟩ : BufTy).Contents (Elt Ideal)) (x1 : (⟨S256x256, .f32⟩ : BufTy).Contents (Elt Ideal))
    (x2 : (⟨S256, .f32⟩ : BufTy).Contents (Elt Ideal)) (x3 : (⟨S256x256, .f32⟩ : BufTy).Contents (Elt Ideal))
    (x4 : (⟨S256, .f32⟩ : BufTy).Contents (Elt Ideal)) (x5 : (⟨S256x256, .f32⟩ : BufTy).Contents (Elt Ideal))
    (x6 : (⟨S256, .f32⟩ : BufTy).Contents (Elt Ideal)) (x7 : (⟨S262144, .i32⟩ : BufTy).Contents (Elt Ideal)) :
    Cert.ReferenceIdeal.Read.val_main_v40 (F := Ideal) x0 x1 x2 x3 x4 x5 x6 x7 = whole x0 x1 x2 x3 x4 x5 x6 x7 := rfl

end RefStage

end Cert.Pool

end
-- ==== Proof.Region.lean ====
/-
  What the one pallas_call leaves in its output array. The grid has 64 points; point t is handed rows
  [4096 t, 4096 t + 4096) of the N × 256 array of rows (N = 262144 = 64 · 4096), the whole 256 × 256 matrix and the
  whole bias at every point, and writes back rows [4096 t, 4096 t + 4096) of the output. Its payload on a block of rows
  is that block of rows of the gate (Gate.lean), so what point t writes back is block t of ONE whole-array function,
  the gate of the arrays the region finds; row n lies in the block of point n / 4096, so the blocks cover the array,
  and the output array ends holding the gate.

  The arrays the region finds are the first argument with its leading axis of size one dropped, the fourth argument
  transposed (its change of format is the identity on the extended reals), and the fifth argument as launched.
-/
import proofs.«173078_j78726750535843_2_alg».proof.Proof.Gen.KernelIdeal.Frame
import proofs.«173078_j78726750535843_2_alg».proof.Proof.Gate
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Region

open Cert.KernelIdeal Cert.KernelIdeal.Gen Idealize.ShloMosaic.ValueIdx Idealize.ShloMosaic.StableHlo

variable (m : (ℓ : Loc nD τ sig) → Buf (Elt Ideal) ℓ)

theorem hz2 : (![0, 0] : Fin 2 → Nat) = fun _ => 0 := funext fun a => by fin_cases a <;> rfl
theorem hz1 : (![0] : Fin 1 → Nat) = fun _ => 0 := funext fun a => by fin_cases a <;> rfl

/-- The block indices, decided over the 64 points: the rows and the output move with the point along axis 0 and stay
    at column block 0; the matrix and the bias stay at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

/-- The rows the region finds: the first argument, its leading unit axis dropped. -/
theorem V_v0 (c : Dev nD) : (V m c main_v0 : S262144x256.Idx → EReal)
    = shapeCast _ (m ((c : Thread nD τ).loc main_arg0)) Facts₀.shapeCasts_S1x262144x256_S262144x256 := by
  show StableHlo.after hostOps0 (fun b => m (c, b)) (Proc.devRef .tc main_v0) = _
  after_results
  rfl

/-- The matrix the region finds: the fourth argument transposed (rounding it to bf16 changes nothing here). -/
theorem V_v3 (c : Dev nD) : (V m c main_v3 : S256x256.Idx → EReal)
    = transpose S256x256 [1, 0] (m ((c : Thread nD τ).loc main_arg3)) Facts₀.transposes_S256x256_S256x256_1_0 := by
  show StableHlo.after hostOps0 (fun b => m (c, b)) (Proc.devRef .tc main_v3) = _
  after_results
  rfl

/-- The block of rows at point t is rows [4096 t, 4096 t + 4096) of the array of rows. -/
theorem rows_blk (c : Dev nD) (t : Fin cfg0.N) (ht : 4096 * t.val + 4096 ≤ 262144) :
    Cert.Tile.IsTile (4096 * t.val) ht (iblk m c 0 t) (V m c main_v0) := by
  intro p l
  obtain ⟨e0, e1, -⟩ := idx_facts t
  unfold iblk
  rw [View.read_apply]
  show V m c main_v0 (((cfg0.win 0).blk t).view.emb (ix2 p l)) = V m c main_v0 _
  refine congrArg (V m c main_v0) ?_
  funext a; apply Fin.ext
  match a with
  | ⟨0, _⟩ => show win0_0.index t (0 : Fin 2) * 4096 + 1 * p.val = 4096 * t.val + p.val; rw [e0]; omega
  | ⟨1, _⟩ => show win0_0.index t (1 : Fin 2) * 256 + 1 * l.val = l.val; rw [e1]; omega

/-- The matrix's block is the whole matrix at every point. -/
theorem whole_blk1 (c : Dev nD) (t : Fin cfg0.N) : (iblk m c 1 t : S256x256.Idx → EReal) = V m c main_v3 := by
  funext y
  obtain ⟨-, -, e2, e3, -⟩ := idx_facts t
  unfold iblk
  rw [View.read_apply]
  show V m c main_v3 (((cfg0.win 1).blk t).view.emb y) = V m c main_v3 y
  refine congrArg (V m c main_v3) ?_
  funext a; apply Fin.ext
  match a with
  | ⟨0, _⟩ => show win0_1.index t (0 : Fin 2) * 256 + 1 * (y 0).val = (y 0).val; rw [e2]; omega
  | ⟨1, _⟩ => show win0_1.index t (1 : Fin 2) * 256 + 1 * (y 1).val = (y 1).val; rw [e3]; omega

/-- The bias's block is the whole bias at every point. -/
theorem whole_blk2 (c : Dev nD) (t : Fin cfg0.N) : (iblk m c 2 t : S256.Idx → EReal) = V m c main_arg4 := by
  funext y
  obtain ⟨-, -, -, -, e4, -⟩ := idx_facts t
  unfold iblk
  rw [View.read_apply]
  show V m c main_arg4 (((cfg0.win 2).blk t).view.emb y) = V m c main_arg4 y
  refine congrArg (V m c main_arg4) ?_
  funext a; apply Fin.ext
  match a with
  | ⟨0, _⟩ => show win0_2.index t (0 : Fin 1) * 256 + 1 * (y 0).val = (y 0).val; rw [e4]; omega

/-- What point t writes back is block t of the gate of the arrays the region finds: the body's one store covers its
    buffer, its payload is the gate on the block of rows, and entry (p, l) of the block sits at (4096 t + p, l). -/
theorem flushed_eq (c : Dev nD) (t : Fin cfg0.N) :
    (dats m 0 c).flushed 3 t = ((cfg0.win 3).blk t).view.read (Elt Ideal)
      (Cert.Gate.gate (V m c main_v0) (V m c main_v3) (V m c main_arg4)) := by
  have hN : t.val < 64 := lt_of_lt_of_eq t.isLt (show cfg0.N = 64 from N_0)
  have ht : 4096 * t.val + 4096 ≤ 262144 := by omega
  obtain ⟨-, -, -, -, -, e5, e6⟩ := idx_facts t
  show (cfg0.win 3).cut (grid0.coords t) ((dats m 0 c).after 3 t) = _
  rw [after0_3]
  unfold out0_3
  rw [View.canon_unit_zero hz2]
  simp only [View.ld_unit_zero (S := S4096x256) hz2, View.ld_unit_zero (S := S256x256) hz2, View.ld_unit_zero (S := S256) hz1]
  funext j
  show k0_pay1 (iblk m c 0 t) (iblk m c 1 t) (iblk m c 2 t) j
    = Cert.Gate.gate (V m c main_v0) (V m c main_v3) (V m c main_arg4) (((cfg0.win 3).blk t).view.emb j)
  obtain ⟨p, l, rfl⟩ : ∃ (p : Fin 4096) (l : Fin 256), j = ix2 p l := ⟨j 0, j 1, eq_ix2 j⟩
  refine (Cert.Gate.payload_tile (4096 * t.val) ht (iblk m c 0 t) (iblk m c 1 t) (iblk m c 2 t) (V m c main_v0)
    (rows_blk m c t ht) p l).trans ?_
  rw [whole_blk1 m c t, whole_blk2 m c t]
  refine congrArg (Cert.Gate.gate (V m c main_v0) (V m c main_v3) (V m c main_arg4)) ?_
  funext a; apply Fin.ext
  match a with
  | ⟨0, _⟩ => show 4096 * t.val + p.val = win0_3.index t (0 : Fin 2) * 4096 + 1 * p.val; rw [e5]; omega
  | ⟨1, _⟩ => show l.val = win0_3.index t (1 : Fin 2) * 256 + 1 * l.val; rw [e6]; omega

/-- An index of the output array is in point t's block iff each coordinate is in the block's range on its axis. -/
theorem mem_blk (t : Fin cfg0.N) (i : S262144x256.Idx) :
    i ∈ ((cfg0.win 3).blk t).view.set ↔ ∀ a : Fin 2, win0_3.index t a * S4096x256.size a ≤ (i a).val ∧ (i a).val < win0_3.index t a * S4096x256.size a + S4096x256.size a := by
  show i ∈ ((View.whole main_v5).slice (win0_3.rect t)).set ↔ _
  rw [View.set_slice_whole, Rect.mem_set_unit]
  exact Iff.rfl

/-- Row n is in the block of point n / 4096, and every point writes back: the blocks cover the array. -/
theorem cover (i : S262144x256.Idx) : ∃ t : Fin cfg0.N, (cfg0.win 3).flush t = true ∧ i ∈ ((cfg0.win 3).blk t).view.set := by
  have hi0 : (i 0).val < 262144 := (i 0).isLt
  have hi1 : (i 1).val < 256 := (i 1).isLt
  have hN : cfg0.N = 64 := N_0
  let t : Fin cfg0.N := ⟨(i 0).val / 4096, by rw [hN]; omega⟩
  obtain ⟨-, -, -, -, -, e5, e6⟩ := idx_facts t
  have e5' : win0_3.index t (0 : Fin 2) = (i 0).val / 4096 := e5
  refine ⟨t, flush0_3 t, ?_⟩
  rw [mem_blk]
  intro a
  match a with
  | ⟨0, _⟩ => show win0_3.index t (0 : Fin 2) * 4096 ≤ (i 0).val ∧ (i 0).val < win0_3.index t (0 : Fin 2) * 4096 + 4096; rw [e5']; omega
  | ⟨1, _⟩ => show win0_3.index t (1 : Fin 2) * 256 ≤ (i 1).val ∧ (i 1).val < win0_3.index t (1 : Fin 2) * 256 + 256; rw [e6]; omega

/-- The output array after the run is the gate of the reshaped rows, the transposed matrix and the bias. -/
theorem final3 (c : Dev nD) : (dats m 0 c).arrAt 3 cfg0.N
    = Cert.Gate.gate (shapeCast _ (m ((c : Thread nD τ).loc main_arg0)) Facts₀.shapeCasts_S1x262144x256_S262144x256)
        (transpose S256x256 [1, 0] (m ((c : Thread nD τ).loc main_arg3)) Facts₀.transposes_S256x256_S256x256_1_0)
        (m ((c : Thread nD τ).loc main_arg4)) := by
  have h := (dats m 0 c).arrAt_eq_of_cover 3 _ (fun t _ => flushed_eq m c t) cover
  rw [V_v0 m c, V_v3 m c, V_main_arg4 m c] at h
  exact h

end Cert.KernelIdeal.Region

end
-- ==== Proof.Whole.lean ====
/-
  The kernel program from end to end. After the pallas_call the host lines apply the pooling (Pool.lean) to what they
  find: the output array of the call, which holds the gate (Region.lean); the array of rows, which the call only read;
  the two transposed matrices the lines before the call computed; and the biases and segment ids, which nothing has
  written. So the program's result is the common function `Pool.whole` of its eight arguments, and its arguments end
  unchanged.
-/
import proofs.«173078_j78726750535843_2_alg».proof.Proof.Region
import proofs.«173078_j78726750535843_2_alg».proof.Proof.Pool

noncomputable section

open Idealize.ShloMosaic Idealize.ShloMosaic.TcCoe Idealize.SL.Sem
open Idealize.ShloMosaic.Pipeline (Dat)

namespace Cert.KernelIdeal.Whole

open Cert.KernelIdeal Cert.KernelIdeal.Gen Idealize.ShloMosaic.ValueIdx Idealize.ShloMosaic.StableHlo

variable (m : (ℓ : Loc nD τ sig) → Buf (Elt Ideal) ℓ) (ρ : Dev nD → PrngReg)

/-- What the lines after the call start from: the call's arrays as it left them, every other buffer as it found it. -/
abbrev W (c : Dev nD) : Valuation τ sig (Elt Ideal) :=
  Pipeline.withArrays (cfgs 0).spec c (V0 m c) fun w => (dats m 0 c).arrAt w (cfgs 0).N

set_option maxHeartbeats 2000000 in
set_option maxRecDepth 8192 in
/-- The result buffer after the last line: the pooling, in this program's spelling, of seven buffers as the lines found them. -/
theorem tail_read (c : Dev nD) : Pipeline.afterTail₀ cfgs (dats m) 0 (V0 m) [hostOps1] c main_v36
    = Cert.Pool.poolK (W m c (Proc.devRef .tc main_v5)) (W m c (Proc.devRef .tc main_v0)) (W m c (Proc.devRef .tc main_v1))
        (W m c (Proc.devRef .tc main_arg2)) (W m c (Proc.devRef .tc main_v4)) (W m c (Proc.devRef .tc main_arg6))
        (W m c (Proc.devRef .tc main_arg7)) := by
  unfold Pipeline.afterTail₀
  simp only [hostOps1, List.flatten_cons, List.flatten_nil, List.append_nil]
  after_results_simp
  rfl

/-- The second argument transposed, computed before the call. -/
theorem V_v1 (c : Dev nD) : (V m c main_v1 : S256x256.Idx → EReal)
    = transpose S256x256 [1, 0] (m ((c : Thread nD τ).loc main_arg1)) Facts₀.transposes_S256x256_S256x256_1_0 := by
  show StableHlo.after hostOps0 (fun b => m (c, b)) (Proc.devRef .tc main_v1) = _
  after_results

/-- The sixth argument transposed, computed before the call. -/
theorem V_v4 (c : Dev nD) : (V m c main_v4 : S256x256.Idx → EReal)
    = transpose S256x256 [1, 0] (m ((c : Thread nD τ).loc main_arg5)) Facts₀.transposes_S256x256_S256x256_1_0 := by
  show StableHlo.after hostOps0 (fun b => m (c, b)) (Proc.devRef .tc main_v4) = _
  after_results

/-- The call's output array holds the gate. -/
theorem W_v5 (c : Dev nD) : W m c (Proc.devRef .tc main_v5)
    = Cert.Gate.gate (shapeCast _ (m ((c : Thread nD τ).loc main_arg0)) Facts₀.shapeCasts_S1x262144x256_S262144x256)
        (transpose S256x256 [1, 0] (m ((c : Thread nD τ).loc main_arg3)) Facts₀.transposes_S256x256_S256x256_1_0)
        (m ((c : Thread nD τ).loc main_arg4)) :=
  (Pipeline.withArrays_arr spec0 launch0.win.arr_inj c (V0 m c) (fun w => (dats m 0 c).arrAt w (cfgs 0).N) 3).trans
    (Cert.KernelIdeal.Region.final3 m c)

/-- The array of rows is an input of the call: it still holds the first argument without its leading unit axis. -/
theorem W_v0 (c : Dev nD) : W m c (Proc.devRef .tc main_v0)
    = shapeCast _ (m ((c : Thread nD τ).loc main_arg0)) Facts₀.shapeCasts_S1x262144x256_S262144x256 :=
  (Pipeline.withArrays_arr spec0 launch0.win.arr_inj c (V0 m c) (fun w => (dats m 0 c).arrAt w (cfgs 0).N) 0).trans
    (((dats m 0 c).arrAt_in 0 rfl _).trans ((A_eq m c 0).trans (Cert.KernelIdeal.Region.V_v0 m c)))

theorem W_v1 (c : Dev nD) : W m c (Proc.devRef .tc main_v1)
    = transpose S256x256 [1, 0] (m ((c : Thread nD τ).loc main_arg1)) Facts₀.transposes_S256x256_S256x256_1_0 :=
  (Pipeline.withArrays_of_ne spec0 c (V0 m c) _ main_v1 (by exact (by decide : ∀ w, Pipeline.arrRef spec0 w ≠ main_v1))).trans (V_v1 m c)

theorem W_v4 (c : Dev nD) : W m c (Proc.devRef .tc main_v4)
    = transpose S256x256 [1, 0] (m ((c : Thread nD τ).loc main_arg5)) Facts₀.transposes_S256x256_S256x256_1_0 :=
  (Pipeline.withArrays_of_ne spec0 c (V0 m c) _ main_v4 (by exact (by decide : ∀ w, Pipeline.arrRef spec0 w ≠ main_v4))).trans (V_v4 m c)

theorem W_arg2 (c : Dev nD) : W m c (Proc.devRef .tc main_arg2) = m ((c : Thread nD τ).loc main_arg2) :=
  (Pipeline.withArrays_of_ne spec0 c (V0 m c) _ main_arg2 (by exact (by decide : ∀ w, Pipeline.arrRef spec0 w ≠ main_arg2))).trans (V_main_arg2 m c)

theorem W_arg6 (c : Dev nD) : W m c (Proc.devRef .tc main_arg6) = m ((c : Thread nD τ).loc main_arg6) :=
  (Pipeline.withArrays_of_ne spec0 c (V0 m c) _ main_arg6 (by exact (by decide : ∀ w, Pipeline.arrRef spec0 w ≠ main_arg6))).trans (V_main_arg6 m c)

theorem W_arg7 (c : Dev nD) : W m c (Proc.devRef .tc main_arg7) = m ((c : Thread nD τ).loc main_arg7) :=
  (Pipeline.withArrays_of_ne spec0 c (V0 m c) _ main_arg7 (by exact (by decide : ∀ w, Pipeline.arrRef spec0 w ≠ main_arg7))).trans (V_main_arg7 m c)

/-- The program's result is the common function of its arguments. -/
theorem result_eq (c : Dev nD) : Pipeline.afterTail₀ cfgs (dats m) 0 (V0 m) [hostOps1] c main_v36
    = Cert.Pool.whole (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  rw [tail_read, W_v5, W_v0, W_v1, W_arg2, W_v4, W_arg6, W_arg7]
  exact Cert.Pool.pool_eq _ _ _ _ _ _ _

/-- The frame run, read: the result at the common function of the arguments, the arguments unchanged. -/
theorem run : θ_run defs (onTc (τ := τ) (main (F := Ideal))) ⟨m, fun _ => 0, ρ⟩ fun r => ∀ c : Dev nD,
      r.2.mem ((c.tc : Thread nD τ).loc main_v36)
        = Cert.Pool.whole (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).2 main_v36 (Pipeline.mem_restRefs_of main_v36 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 2).trans (((dats m 0 c).arrAt_in 2 rfl _).trans ((A_eq m c 2).trans (V_main_arg4 m c))),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main m ρ)

end Cert.KernelIdeal.Whole

end
-- ==== Proof.lean ====
/-
  Segment-softmax pooling: both programs compute, from rows x (the first argument without its leading axis of size
  one, N × 256 with N = 262144), three 256 × 256 matrices, three biases and N segment ids,

      E   = exp (min 50 (max (−50) (x · Wgᵀ + bg)))                    the gate
      out = pool (E, x, Wfᵀ, bf, Whᵀ, bh, ids)                          sums of E and of (x · Wfᵀ + bf) · E / den over
                                                                        each segment, a last affine map, a gather.

  The reference computes E on the host; the kernel program computes it in one pallas_call, 4096 rows per grid point,
  with both matmul operands rounded to bf16 — the identity on the extended reals — and then applies the same pooling
  on the host. Row n of x · Wgᵀ only reads row n of x, so each point's block is the block of the whole gate, the 64
  blocks tile the array, and the call's output array is E. The pooling is one function in both programs and is never
  opened. Nothing here needs an operand to be finite: the precondition is not used beyond the frames.

  Proof/Gate.lean: the gate and its row blocks (over Proof/LibTile.lean). Proof/Pool.lean: the pooling, the common
  function of the eight arguments, the reference's result. Proof/Region.lean: the call's output array. Proof/Whole.lean:
  the kernel program's result. The frames of the two kernel programs and the reference's run are the generated ones;
  the rewriting ledger is empty, so `preserves` asks nothing.
-/
import proofs.«173078_j78726750535843_2_alg».proof.Defs
import proofs.«173078_j78726750535843_2_alg».proof.Proof.Gen.Kernel
import proofs.«173078_j78726750535843_2_alg».proof.Proof.Gen.Kernel.Frame
import proofs.«173078_j78726750535843_2_alg».proof.Proof.Gen.KernelIdeal
import proofs.«173078_j78726750535843_2_alg».proof.Proof.Gen.KernelIdeal.Frame
import proofs.«173078_j78726750535843_2_alg».proof.Proof.Gen.ReferenceIdeal
import proofs.«173078_j78726750535843_2_alg».proof.Proof.Gen.ReferenceIdeal.Run
import proofs.«173078_j78726750535843_2_alg».proof.Proof.Gen.ReferenceIdeal.Read
import proofs.«173078_j78726750535843_2_alg».proof.Proof.Gen.Pre_finite_inputs
import proofs.«173078_j78726750535843_2_alg».proof.Proof.Pool
import proofs.«173078_j78726750535843_2_alg».proof.Proof.Whole
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the common function of those arguments. -/
theorem algebraic : Cert.algebraic_KernelIdeal_ReferenceIdeal := by
  intro m ρ m' ρ' _ hagree
  refine ⟨fun c => Cert.Pool.whole (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [e0, e1, e2, e3, e4, e5, e6, e7]
  exact (Cert.ReferenceIdeal.Read.val_main_v40_eq _ _ _ _ _ _ _ _).trans (Cert.Pool.ref_eq _ _ _ _ _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
